-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S1x128 .f32) (main_arg9 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S600000 .f32) (main_arg3 : FVec F S128x128 .f32) (main_arg4 : FVec F S384x128 .f32) (main_arg5 : FVec F S384x128 .f32) (main_arg6 : FVec F S384 .f32) (main_arg7 : FVec F S384 .f32) (main_arg8 : FVec F S1x128 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S5000x128 : Shape := ⟨2, ![5000, 128]⟩
abbrev S1x600000 : Shape := ⟨2, ![1, 600000]⟩
abbrev S50000 : Shape := ⟨1, ![50000]⟩
abbrev S650000 : Shape := ⟨1, ![650000]⟩
abbrev S650000x1 : Shape := ⟨2, ![650000, 1]⟩
abbrev S650000x128 : Shape := ⟨2, ![650000, 128]⟩
abbrev S1x1 : Shape := ⟨2, ![1, 1]⟩
abbrev S50000x1 : Shape := ⟨2, ![50000, 1]⟩
abbrev S5000x1 : Shape := ⟨2, ![5000, 1]⟩
abbrev S5000 : Shape := ⟨1, ![5000]⟩

abbrev nBuf : Space → Nat
  | .hbm => 114
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000x128, .f32⟩
  | .hbm, ⟨54, _⟩ => ⟨S1x600000, .i32⟩
  | .hbm, ⟨55, _⟩ => ⟨S600000, .i32⟩
  | .hbm, ⟨56, _⟩ => ⟨S1x600000, .i32⟩
  | .hbm, ⟨57, _⟩ => ⟨S600000, .i32⟩
  | .hbm, ⟨58, _⟩ => ⟨S50000, .i32⟩
  | .hbm, ⟨59, _⟩ => ⟨S650000, .i32⟩
  | .hbm, ⟨60, _⟩ => ⟨S650000, .i32⟩
  | .hbm, ⟨61, _⟩ => ⟨S_, .f32⟩
  | .hbm, ⟨62, _⟩ => ⟨S50000, .f32⟩
  | .hbm, ⟨63, _⟩ => ⟨S650000, .f32⟩
  | .hbm, ⟨64, _⟩ => ⟨S_, .f32⟩
  | .hbm, ⟨65, _⟩ => ⟨S50000, .f32⟩
  | .hbm, ⟨66, _⟩ => ⟨S650000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .i1⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S_, .i32⟩
  | .hbm, ⟨77, _⟩ => ⟨S650000, .i32⟩
  | .hbm, ⟨78, _⟩ => ⟨S650000, .i1⟩
  | .hbm, ⟨79, _⟩ => ⟨S_, .i32⟩
  | .hbm, ⟨80, _⟩ => ⟨S650000, .i32⟩
  | .hbm, ⟨81, _⟩ => ⟨S650000, .i32⟩
  | .hbm, ⟨82, _⟩ => ⟨S650000, .i32⟩
  | .hbm, ⟨83, _⟩ => ⟨S650000x1, .i32⟩
  | .hbm, ⟨84, _⟩ => ⟨S650000, .f32⟩
  | .hbm, ⟨85, _⟩ => ⟨S650000, .f32⟩
  | .hbm, ⟨86, _⟩ => ⟨S_, .i32⟩
  | .hbm, ⟨87, _⟩ => ⟨S650000, .i32⟩
  | .hbm, ⟨88, _⟩ => ⟨S650000, .i1⟩
  | .hbm, ⟨89, _⟩ => ⟨S_, .i32⟩
  | .hbm, ⟨90, _⟩ => ⟨S650000, .i32⟩
  | .hbm, ⟨91, _⟩ => ⟨S650000, .i32⟩
  | .hbm, ⟨92, _⟩ => ⟨S650000, .i32⟩
  | .hbm, ⟨93, _⟩ => ⟨S650000x1, .i32⟩
  | .hbm, ⟨94, _⟩ => ⟨S650000, .f32⟩
  | .hbm, ⟨95, _⟩ => ⟨S650000, .f32⟩
  | .hbm, ⟨96, _⟩ => ⟨S650000x1, .f32⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000x128, .f32⟩
  | .hbm, ⟨106, _⟩ => ⟨S650000x128, .f32⟩
  | .hbm, ⟨107, _⟩ => ⟨S650000x128, .f32⟩
  | .hbm, ⟨108, _⟩ => ⟨S_, .f32⟩
  | .hbm, ⟨109, _⟩ => ⟨S50000x128, .f32⟩
  | .hbm, ⟨110, _⟩ => ⟨S650000x1, .i32⟩
  | .hbm, ⟨111, _⟩ => ⟨S50000x128, .f32⟩
  | .hbm, ⟨112, _⟩ => ⟨S1x1, .f32⟩
  | .hbm, ⟨113, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x1, .f32⟩
  | .local _ .vmem, ⟨9, _⟩ => ⟨S5000x1, .f32⟩
  | .local _ .vmem, ⟨10, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_9 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  bcast_S_S128x128 : S_.BroadcastsInDim S128x128 (![] : Fin 0 → Fin S128x128.rank)
  slices_S128x384_S128x128_0_128 : S128x384.Slices ![0, 128] S128x128
  slices_S128x384_S128x128_0_256 : S128x384.Slices ![0, 256] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  broadcasts_S1x128_S5000x128 : S1x128.Broadcasts S5000x128
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S128x128_S128x384_S128x384_1_0_0_1_n_n_wf : DotDims.WF S128x128 S128x384 S128x384 [1] [0] [0] [1] [] []
  dot_S5000x128_S128x128_S5000x128_1_0_0_1_n_n_wf : DotDims.WF S5000x128 S128x128 S5000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S1x600000 : Shape := ⟨2, ![1, 600000]⟩
abbrev S50000 : Shape := ⟨1, ![50000]⟩
abbrev S650000 : Shape := ⟨1, ![650000]⟩
abbrev S650000x1 : Shape := ⟨2, ![650000, 1]⟩
abbrev S650000x128 : Shape := ⟨2, ![650000, 128]⟩
abbrev S128x1 : Shape := ⟨2, ![128, 1]⟩
abbrev S50000x1 : Shape := ⟨2, ![50000, 1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S1x600000, .i32⟩
  | .hbm, ⟨54, _⟩ => ⟨S600000, .i32⟩
  | .hbm, ⟨55, _⟩ => ⟨S1x600000, .i32⟩
  | .hbm, ⟨56, _⟩ => ⟨S600000, .i32⟩
  | .hbm, ⟨57, _⟩ => ⟨S50000, .i32⟩
  | .hbm, ⟨58, _⟩ => ⟨S650000, .i32⟩
  | .hbm, ⟨59, _⟩ => ⟨S650000, .i32⟩
  | .hbm, ⟨60, _⟩ => ⟨S_, .f32⟩
  | .hbm, ⟨61, _⟩ => ⟨S50000, .f32⟩
  | .hbm, ⟨62, _⟩ => ⟨S650000, .f32⟩
  | .hbm, ⟨63, _⟩ => ⟨S_, .f32⟩
  | .hbm, ⟨64, _⟩ => ⟨S50000, .f32⟩
  | .hbm, ⟨65, _⟩ => ⟨S650000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S_, .i32⟩
  | .hbm, ⟨86, _⟩ => ⟨S650000, .i32⟩
  | .hbm, ⟨87, _⟩ => ⟨S650000, .i1⟩
  | .hbm, ⟨88, _⟩ => ⟨S_, .i32⟩
  | .hbm, ⟨89, _⟩ => ⟨S650000, .i32⟩
  | .hbm, ⟨90, _⟩ => ⟨S650000, .i32⟩
  | .hbm, ⟨91, _⟩ => ⟨S650000, .i32⟩
  | .hbm, ⟨92, _⟩ => ⟨S650000x1, .i32⟩
  | .hbm, ⟨93, _⟩ => ⟨S650000, .f32⟩
  | .hbm, ⟨94, _⟩ => ⟨S650000, .f32⟩
  | .hbm, ⟨95, _⟩ => ⟨S50000x128, .f32⟩
  | .hbm, ⟨96, _⟩ => ⟨S650000x1, .f32⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000x128, .f32⟩
  | .hbm, ⟨106, _⟩ => ⟨S650000x128, .f32⟩
  | .hbm, ⟨107, _⟩ => ⟨S650000x128, .f32⟩
  | .hbm, ⟨108, _⟩ => ⟨S_, .f32⟩
  | .hbm, ⟨109, _⟩ => ⟨S50000x128, .f32⟩
  | .hbm, ⟨110, _⟩ => ⟨S650000x1, .i32⟩
  | .hbm, ⟨111, _⟩ => ⟨S50000x128, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S128x1, .f32⟩
  | .hbm, ⟨116, _⟩ => ⟨S50000x1, .f32⟩
  | .hbm, ⟨117, _⟩ => ⟨S1x1, .f32⟩
  | .hbm, ⟨118, _⟩ => ⟨S50000x1, .f32⟩
  | .hbm, ⟨119, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  bcast_S_S128x128 : S_.BroadcastsInDim S128x128 (![] : Fin 0 → Fin S128x128.rank)
  slices_S128x384_S128x128_0_128 : S128x384.Slices ![0, 128] S128x128
  slices_S128x384_S128x128_0_256 : S128x384.Slices ![0, 256] S128x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S128x128_S128x384_S128x384_1_0_0_1_n_n_wf : DotDims.WF S128x128 S128x384 S128x384 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x1_S50000x1_1_0_0_1_n_n_wf : DotDims.WF S50000x128 S128x1 S50000x1 [1] [0] [0] [1] [] []

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealised kernel's whole run, with the result array read.

  The program is six segments: the host operations that evolve the weight, the first tiled region (rows of `x` times
  the weight), three stretches of host operations (the neighbourhood sum), and the second tiled region (the read-out).
  The contents of every buffer at each boundary are a fold from the launch memory; at the end every unscoped buffer
  holds the last boundary's contents. Reading the ten argument arrays there gives the launch contents back; reading
  the result array gives the fold's value at it, which the value lemmas then open region by region.
-/
import proofs.«108203_j16192026706534_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and the ten arguments as launched. -/
theorem run_result : θ_run defs (onTc (τ := τ) (main (F := F))) ⟨m, fun _ => 0, ρ⟩ (fun r => ∀ c : Dev nD,
      r.2.mem ((c.tc : Thread nD τ).loc main_v85) = W6 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v85 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.LayerOps.lean ====
/-
  The two dense pieces of the graph layer, as functions of whole arrays read index by index on the extended reals.

  `rowsTimes x W` is the product of the node features `x : [50000, 128]` with the evolved weight `W : [128, 128]`:
  entry `(p, q)` is the sum over `k` of `x(p, k) · W(k, q)`.
  `reluProject h w b` is the read-out of the aggregated features `h : [50000, 128]` against the row `w : [1, 128]`:
  entry `p` is the sum over `k` of `max(h(p, k), 0) · w(0, k)`, plus the bias `b`.
  Both are sums over `Fin 128`; neither depends on how the 50000 rows are cut into tiles, nor on the order in which a
  sum's terms are added (addition of extended reals is commutative and associative).
-/
import Idealize.ShloMosaic.PureOps.Ideal
import Idealize.ShloMosaic.Lib.ValueIdx

open scoped BigOperators

noncomputable section

namespace Cert.Layer

open Idealize.ShloMosaic Idealize.ShloMosaic.ValueIdx

/-- Row `p` of `x` against column `q` of `W`. -/
def rowsTimes (x : (⟨2, ![50000, 128]⟩ : Shape).Idx → EReal) (W : (⟨2, ![128, 128]⟩ : Shape).Idx → EReal)
    (p : Fin 50000) (q : Fin 128) : EReal :=
  ∑ k : Fin 128, x (ix2 p k) * W (ix2 k q)

/-- The product as an array. -/
def rowsTimesArr (x : (⟨2, ![50000, 128]⟩ : Shape).Idx → EReal) (W : (⟨2, ![128, 128]⟩ : Shape).Idx → EReal) :
    (⟨2, ![50000, 128]⟩ : Shape).Idx → EReal :=
  fun i => rowsTimes x W (i 0) (i 1)

/-- Row `p` of `h`, negative entries replaced by zero, against the row `w`, plus `b`. -/
def reluProject (h : (⟨2, ![50000, 128]⟩ : Shape).Idx → EReal) (w : (⟨2, ![1, 128]⟩ : Shape).Idx → EReal) (b : EReal)
    (p : Fin 50000) : EReal :=
  (∑ k : Fin 128, max (h (ix2 p k)) 0 * w (ix2 0 k)) + b

/-- The read-out as a column. -/
def reluProjectArr (h : (⟨2, ![50000, 128]⟩ : Shape).Idx → EReal) (w : (⟨2, ![1, 128]⟩ : Shape).Idx → EReal) (b : EReal) :
    (⟨2, ![50000, 1]⟩ : Shape).Idx → EReal :=
  fun i => reluProject h w b (i 0)

end Cert.Layer

end
-- ==== Proof.Layer.lean ====
/-
  The whole layer as ONE function of the ten argument arrays, index by index on the extended reals.

  Three stages. The evolved weight `W` is a gated-recurrent step applied to the initial weight (the reference's own
  chain of host operations up to its value 37, carried here as one opaque function of five of the arguments). The
  hidden features are the rows of `x` times `W` (`rowsTimesArr`), passed through the normalised neighbourhood sum
  `aggregate`: gather each edge's source row, scale it by the edge's normalised weight, and add it into the edge's
  destination row — again the reference's own host operations, taken as one function of the array being gathered
  from, the edge list and the edge weights, and never opened. The result is the read-out `reluProjectArr` of the
  aggregated features against the row `x8` with the bias `x9(0)`.
-/
import proofs.«108203_j16192026706534_1_alg».proof.Proof.Gen.ReferenceIdeal.Read
import proofs.«108203_j16192026706534_1_alg».proof.Proof.LayerOps

open scoped BigOperators

noncomputable section

namespace Cert.Layer

open Cert.ReferenceIdeal Cert.ReferenceIdeal.Gen Cert.ReferenceIdeal.Read Idealize.ShloMosaic Idealize.ShloMosaic.ValueIdx

/-- The normalised neighbourhood sum of ANY node-feature array `xw`: the scatter-add, over the edges and the self
    loops, of each source row of `xw` scaled by the edge's normalised weight. -/
def aggregate (xw : (⟨S50000x128, .f32⟩ : BufTy).Contents (Elt Ideal)) (x1 : (⟨S2x600000, .i32⟩ : BufTy).Contents (Elt Ideal))
    (x2 : (⟨S600000, .f32⟩ : BufTy).Contents (Elt Ideal)) : (⟨S50000x128, .f32⟩ : BufTy).Contents (Elt Ideal) :=
  Host.scatterAdd (F := Ideal) (φ := .f32) scatter_S50000x128_S650000x1_S650000x128_1_0_0_1 (val_main_v81 (F := Ideal)) (val_main_v82 (F := Ideal) x1)
    (mulf (F := Ideal) (φ := .f32) (val_main_v79 (F := Ideal) x1 x2)
      (Host.gather (α := Ideal .f32) gather_S50000x128_S650000x1_S650000x128_1_0_n_n_0_1_1128 xw (val_main_v77 (F := Ideal) x1)))

/-- The evolved weight: one gated-recurrent step from the initial weight `x3`. -/
abbrev evolved (x3 : (⟨S128x128, .f32⟩ : BufTy).Contents (Elt Ideal)) (x4 x5 : (⟨S384x128, .f32⟩ : BufTy).Contents (Elt Ideal))
    (x6 x7 : (⟨S384, .f32⟩ : BufTy).Contents (Elt Ideal)) : (⟨S128x128, .f32⟩ : BufTy).Contents (Elt Ideal) :=
  val_main_v37 (F := Ideal) x3 x4 x5 x6 x7

/-- The layer's result. -/
def layer (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S1x128, .f32⟩ : BufTy).Contents (Elt Ideal)) (x9 : (⟨S1, .f32⟩ : BufTy).Contents (Elt Ideal)) :
    (⟨S50000x1, .f32⟩ : BufTy).Contents (Elt Ideal) :=
  reluProjectArr (aggregate (rowsTimesArr x0 (evolved x3 x4 x5 x6 x7)) x1 x2) x8 (x9 (ix1 0))

end Cert.Layer

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Fold.lean ====
/-
  The idealised kernel program's buffers at the boundaries of its two tiled regions, read as the layer's stages.

  Before the first region the host operations evolve the weight: the buffer the region takes as its second operand
  holds `Layer.evolved` of five of the arguments (the same operations, in the same order, as the reference's; the
  two spellings are one term). The node features, the edge list, the edge weights, the read-out row and the bias are
  never written, so each is found as launched wherever it is read; the bias reaches the second region recast from a
  one-entry vector to a one-by-one array, whose only cell is that entry. Each region's output array, at the region's
  exit, is what its ten write-backs leave.
-/
import proofs.«108203_j16192026706534_1_alg».proof.Proof.Gen.KernelIdeal.Frame
import proofs.«108203_j16192026706534_1_alg».proof.Proof.Layer
import proofs.«108203_j16192026706534_1_alg».proof.Proof.LibKeepdims
import Idealize.ShloMosaic.Lib.StableHlo.Run
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The first region finds, as its weight operand, the evolved weight of the launched arguments. -/
theorem evolved_eq (c : Dev nD) :
    V1 (F := Ideal) m ρ c main_v37 = Cert.Layer.evolved (m ((c : Thread nD τ).loc main_arg3)) (m ((c : Thread nD τ).loc main_arg4))
      (m ((c : Thread nD τ).loc main_arg5)) (m ((c : Thread nD τ).loc main_arg6)) (m ((c : Thread nD τ).loc main_arg7)) := by
  show StableHlo.after hostOps0 (W0 m ρ c) (Proc.devRef .tc main_v37) = _
  simp only [hostOps0]
  after_results_simp
  rfl

/-- The first region finds the node features as launched. -/
theorem entry0_x (c : Dev nD) : V1 (F := Ideal) m ρ c main_arg0 = m ((c : Thread nD τ).loc main_arg0) := by
  show StableHlo.after hostOps0 (W0 m ρ c) (Proc.devRef .tc main_arg0) = _
  simp only [hostOps0]
  after_results_simp

/-- After the first region the edge list is as launched: neither the weight's host operations nor the region write it. -/
theorem W2_edges (c : Dev nD) : W2 (F := Ideal) m ρ c (Proc.devRef .tc main_arg1) = m ((c : Thread nD τ).loc main_arg1) := by
  rw [W2_of_ne m ρ c main_arg1 (by decide)]
  show StableHlo.after hostOps0 (W0 m ρ c) (Proc.devRef .tc main_arg1) = _
  simp only [hostOps0]
  after_results_simp

/-- After the first region the edge weights are as launched. -/
theorem W2_weights (c : Dev nD) : W2 (F := Ideal) m ρ c (Proc.devRef .tc main_arg2) = m ((c : Thread nD τ).loc main_arg2) := by
  rw [W2_of_ne m ρ c main_arg2 (by decide)]
  show StableHlo.after hostOps0 (W0 m ρ c) (Proc.devRef .tc main_arg2) = _
  simp only [hostOps0]
  after_results_simp

/-- After the first region the bias is as launched. -/
theorem W2_bias (c : Dev nD) : W2 (F := Ideal) m ρ c (Proc.devRef .tc main_arg9) = m ((c : Thread nD τ).loc main_arg9) := by
  rw [W2_of_ne m ρ c main_arg9 (by decide)]
  show StableHlo.after hostOps0 (W0 m ρ c) (Proc.devRef .tc main_arg9) = _
  simp only [hostOps0]
  after_results_simp

/-- The first region's output array, at its exit, is what its ten write-backs leave. -/
theorem W2_product (c : Dev nD) : W2 (F := Ideal) m ρ c (Proc.devRef .tc main_v38) = (dat0 (V1 m ρ) c).arrAt 2 cfg0.N :=
  W2_arr m ρ c 2

/-- The second region finds the read-out row as launched. -/
theorem entry1_row (c : Dev nD) : V5 (F := Ideal) m ρ c main_arg8 = m ((c : Thread nD τ).loc main_arg8) :=
  ((W6_arr m ρ c 1).trans (((dat1 (V5 m ρ) c).arrAt_in 1 rfl _).trans (A_eq1 (V5 m ρ) c 1))).symm.trans (W6_main_arg8 m ρ c)

/-- The second region finds, in its one-cell bias window, the bias as launched: the cell is the one-entry vector recast
    to a one-by-one array. -/
theorem entry1_bias (c : Dev nD) :
    V5 (F := Ideal) m ρ c main_v84 (ix2 (0 : Fin 1) (0 : Fin 1)) = m ((c : Thread nD τ).loc main_arg9) (ix1 (0 : Fin 1)) := by
  have h : V5 (F := Ideal) m ρ c main_v84
      = fun i => shapeCast S1x1 (W2 m ρ c (Proc.devRef .tc main_arg9)) shapeCasts_S1_S1x1 i := by
    show StableHlo.after hostOps1_2 (StableHlo.after hostOps1_1 (StableHlo.after hostOps1 (W2 m ρ c))) (Proc.devRef .tc main_v84) = _
    simp only [hostOps1, hostOps1_1, hostOps1_2]
    after_results_simp
    rfl
  rw [h, W2_bias]
  exact Idealize.ShloMosaic.Keepdims.shapeCast_a_a1_apply (a := 1) _ shapeCasts_S1_S1x1 (0 : Fin 1) (0 : Fin 1)

/-- The result array, at the end, is what the second region's ten write-backs leave. -/
theorem W6_result (c : Dev nD) : W6 (F := Ideal) m ρ c (Proc.devRef .tc main_v85) = (dat1 (V5 m ρ) c).arrAt 3 cfg1.N :=
  W6_arr m ρ c 3

end Cert.KernelIdeal.Fold

end
-- ==== Proof.FoldAggregate.lean ====
/-
  Between its two tiled regions the idealised kernel program runs the neighbourhood sum on the first region's output.

  The stretch is the reference's own chain — split the edge list into sources and destinations, append the self loops,
  sum the weights into degrees, take the inverse square roots where a degree is positive, scale each edge's weight by
  the two endpoint factors, gather the source rows, scale them, and scatter-add them into the destination rows — with
  the first region's output array where the reference has its matrix product. So the array the second region finds is
  `Layer.aggregate` of that output, the edge list and the edge weights: the two spellings are one term, once the
  called selection's value transports (identities: each buffer of the call holds a value of its own type) are removed
  and the three places where two pieces are laid end to end are read through.
-/
import proofs.«108203_j16192026706534_1_alg».proof.Proof.Gen.KernelIdeal.Frame
import proofs.«108203_j16192026706534_1_alg».proof.Proof.Layer
import Idealize.ShloMosaic.Lib.StableHlo.Run
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Two pieces laid end to end along the one axis. -/
def cat {α : Type} (a : S600000.Idx → α) (b : S50000.Idx → α) : S650000.Idx → α :=
  concatenate S650000 0 [⟨S600000, a⟩, ⟨S50000, b⟩] concatenates_S600000_S50000_S650000_d0

theorem cat_fold {α : Type} (a : S600000.Idx → α) (b : S50000.Idx → α) :
    concatenate S650000 0 [⟨S600000, a⟩, ⟨S50000, b⟩] concatenates_S600000_S50000_S650000_d0 = cat a b := rfl

/-! The called function's buffers hold values of their own types: the transports between a value's type and its
    buffer's type are identities. -/
theorem toBuf_v54 (v : (⟨S50000, .f32⟩ : BufTy).Contents (Elt Ideal)) (h1 h2 h3) :
    (TRef.of (sig := sig) (T := ⟨S50000, .f32⟩) main_v54 h1 h2 h3).toBuf (Val := Elt Ideal) v = v := rfl
theorem toBuf_call0_v1 (v : (⟨S50000, .f32⟩ : BufTy).Contents (Elt Ideal)) (h1 h2 h3) :
    (TRef.of (sig := sig) (T := ⟨S50000, .f32⟩) main_call0_v1 h1 h2 h3).toBuf (Val := Elt Ideal) v = v := rfl
theorem toBuf_call0_v0 (v : (⟨S_, .f32⟩ : BufTy).Contents (Elt Ideal)) (h1 h2 h3) :
    (TRef.of (sig := sig) (T := ⟨S_, .f32⟩) main_call0_v0 h1 h2 h3).toBuf (Val := Elt Ideal) v = v := rfl
theorem ofBuf_v52 (v : (⟨S50000, .i1⟩ : BufTy).Contents (Elt Ideal)) (h1 h2 h3) :
    (TRef.of (sig := sig) (T := ⟨S50000, .i1⟩) main_v52 h1 h2 h3).ofBuf (Val := Elt Ideal) v = v := rfl
theorem ofBuf_v53 (v : (⟨S50000, .f32⟩ : BufTy).Contents (Elt Ideal)) (h1 h2 h3) :
    (TRef.of (sig := sig) (T := ⟨S50000, .f32⟩) main_v53 h1 h2 h3).ofBuf (Val := Elt Ideal) v = v := rfl
theorem ofBuf_call0_v1 (v : (⟨S50000, .f32⟩ : BufTy).Contents (Elt Ideal)) (h1 h2 h3) :
    (TRef.of (sig := sig) (T := ⟨S50000, .f32⟩) main_call0_v1 h1 h2 h3).ofBuf (Val := Elt Ideal) v = v := rfl
theorem ofBuf_call0_v0 (v : (⟨S_, .f32⟩ : BufTy).Contents (Elt Ideal)) (h1 h2 h3) :
    (TRef.of (sig := sig) (T := ⟨S_, .f32⟩) main_call0_v0 h1 h2 h3).ofBuf (Val := Elt Ideal) v = v := rfl
theorem ofBuf_cst_7 (v : (⟨S_, .f32⟩ : BufTy).Contents (Elt Ideal)) (h1 h2 h3) :
    (TRef.of (sig := sig) (T := ⟨S_, .f32⟩) main_cst_7 h1 h2 h3).ofBuf (Val := Elt Ideal) v = v := rfl

set_option maxHeartbeats 4000000 in
/-- The second region finds, as its first operand, the neighbourhood sum of the first region's output. -/
theorem aggregate_eq (c : Dev nD) :
    V5 (F := Ideal) m ρ c main_v83 = Cert.Layer.aggregate (W2 m ρ c (Proc.devRef .tc main_v38)) (W2 m ρ c (Proc.devRef .tc main_arg1)) (W2 m ρ c (Proc.devRef .tc main_arg2)) := by
  show StableHlo.after hostOps1_2 (StableHlo.after hostOps1_1 (StableHlo.after hostOps1 (W2 m ρ c))) (Proc.devRef .tc main_v83) = _
  simp only [hostOps1, hostOps1_1, hostOps1_2]
  after_results_simp
  simp only [cat_fold]
  after_results_simp
  simp only [cat, toBuf_v54, toBuf_call0_v1, toBuf_call0_v0, ofBuf_v52, ofBuf_v53, ofBuf_call0_v1, ofBuf_call0_v0, ofBuf_cst_7]
  rfl

end Cert.KernelIdeal.Fold

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  The first tiled region of the program is a matrix product computed ten row blocks at a time.

  The region's grid has ten points. At point `t` the body sees rows `5000·t … 5000·t + 4999` of the node features
  `x : [50000, 128]`, the whole weight `W : [128, 128]` (the same block at every point), and writes the same row
  block of the result. On the extended reals a change of float format is the identity and the matrix unit's product
  into a zero accumulator is the textbook one, so entry `(p, q)` of the block written at `t` is
  `∑ k, x(5000·t + p, k) · W(k, q)`: exactly the entries of rows `5000·t + p` of the whole product `x · W`.
  Every row `r < 50000` lies in the block of the point `r / 5000`, and every point writes its block back, so after
  the ten write-backs the result array is the whole product, index by index.
-/
import proofs.«108203_j16192026706534_1_alg».proof.Proof.Gen.KernelIdeal.Frame
import proofs.«108203_j16192026706534_1_alg».proof.Proof.LayerOps
import proofs.«108203_j16192026706534_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

open scoped BigOperators
noncomputable section
namespace Cert.KernelIdeal.Regions
open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-block access, however they are spelt. -/
theorem zero_offsets : (![0, 0] : Fin 2 → Nat) = fun _ => 0 := funext fun a => by fin_cases a <;> rfl

/-- The body's one stored value at an entry of the block: row `p` of the loaded rows against column `q` of the
    loaded weight. The two format changes are identities on the extended reals, the cast keeps the shape, and the
    product is accumulated into zero. -/
theorem block_product_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Cert.MatOps.matmul_plain_zero_apply (M := 5000) (K := 128) (N := 128) none
    (truncf .bf16 x0 bitsLt_bf16_f32)
    (truncf .bf16 (shapeCast S128x128 x1 shapeCasts_S128x128_S128x128) bitsLt_bf16_f32) p q).trans ?_
  rw [shapeCast_self]
  rfl

variable (V : (c : Dev nD) → (b : Ref sig .tc) → Buf (Elt Ideal) ((c : Thread nD τ).loc b))

/-- The printed index maps over the ten points: the row windows sit at block `t` of the row axis and block `0` of
    the column axis; the weight's window is at block `(0, 0)` at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `5000·t …` of the whole product of the arrays the region finds. -/
theorem written_back_eq (c : Dev nD) (t : Fin cfg0.N) :
    (dat0 (F := Ideal) V c).flushed 2 t
      = ((cfg0.win 2).blk t).view.read (Elt Ideal) (Cert.Layer.rowsTimesArr (V c main_arg0) (V c main_v37)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := block_indices t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Layer.rowsTimesArr (V c main_arg0) (V c main_v37) (((cfg0.win 2).blk t).view.emb (ix2 p q))
  refine (block_product_apply (iblk0 V c 0 t) (iblk0 V c 1 t) p q).trans ?_
  unfold Cert.Layer.rowsTimesArr Cert.Layer.rowsTimes
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  refine congrArg₂ _ ?_ ?_
  · show V c main_arg0 (((cfg0.win 0).blk t).view.emb (ix2 p k)) = _
    exact congrArg (V c main_arg0) h0
  · show V c main_v37 (((cfg0.win 1).blk t).view.emb (ix2 k q)) = _
    exact congrArg (V c main_v37) h1

/-- An index of the result array is in point `t`'s block iff each coordinate is in the block's range on its axis. -/
theorem mem_row_block (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v38).slice (win0_2.rect t)).set ↔ _
  rw [View.set_slice_whole, Rect.mem_set_unit]
  exact Iff.rfl

/-- Row `r` is in the block of the point `r / 5000`, and that point writes back. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < grid0.N := by rw [N_0]; omega
  obtain ⟨-, -, -, -, e20, e21⟩ := block_indices ⟨(i 0).val / 5000, hN⟩
  refine ⟨⟨(i 0).val / 5000, hN⟩, flush0_2 _, ?_⟩
  rw [mem_row_block]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    rw [e21]; omega

/-- After the ten write-backs the region's result array is the product of the node features with the weight. -/
theorem region0_array (c : Dev nD) :
    (dat0 (F := Ideal) V c).arrAt 2 cfg0.N = Cert.Layer.rowsTimesArr (V c main_arg0) (V c main_v37) :=
  (dat0 (F := Ideal) V c).arrAt_eq_of_cover 2 _ (fun t _ => written_back_eq V c t) rows_covered

end Cert.KernelIdeal.Regions
end
-- ==== Proof.Region1.lean ====
/-
  The read-out region of the graph layer, from its ten row blocks to the whole output column.

  The region walks a grid of ten points. At point t it sees rows 5000·t … 5000·t + 4999 of the aggregated features
  h : [50000, 128], the whole weight row w : [1, 128] and the whole bias b : [1, 1], and it writes rows
  5000·t … 5000·t + 4999 of the output column [50000, 1]. On a block the body computes, for each row p,

      (∑ k : Fin 128, max (h(p, k), 0) · w(0, k)) + b(0, 0)

  on the extended reals: negative features are replaced by zero (the maximum with the zero word, which encodes the
  number 0), the weight row is repeated down the 5000 rows, the products are summed along the 128 lanes starting from
  zero, the 5000 sums are laid out as a column, and the bias is repeated down that column and added.

  Three facts give the whole column. (1) The body's value at row p of a block is the displayed formula of the blocks'
  entries. (2) Entry (p, k) of the feature block at point t is entry (5000·t + p, k) of the feature array, the weight
  and bias blocks are the arrays themselves, and entry p of the output block sits at row 5000·t + p; so what point t
  writes back is exactly rows 5000·t … 5000·t + 4999 of the one column r ↦ (∑ k, max (h(r, k), 0) · w(0, k)) + b.
  (3) Row r belongs to the block of the point r / 5000, there are ten points, and every point writes its block back; so
  the ten blocks cover the 50000 rows and the column ends holding that function everywhere.
-/
import proofs.«108203_j16192026706534_1_alg».proof.Proof.Gen.KernelIdeal.Frame
import proofs.«108203_j16192026706534_1_alg».proof.Proof.LayerOps
import proofs.«108203_j16192026706534_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

open scoped BigOperators
noncomputable section
namespace Cert.KernelIdeal.Regions
open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The sum along the 128 lanes of a [5000, 128] block, read at row r. -/
theorem laneSum_apply (src : FVec Ideal S5000x128 .f32) (h : S5000x128.Reduces [1] S5000) (hφ : FKind.Formats .f32)
    (hacc : (0x00000000#32 : BitVec 32) = 0x00000000#32) (r : Fin 5000) :
    multiReduction .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-- The body's stored value at row p of a block. -/
theorem reluLinear_pay_apply (x0 : Vec Ideal S5000x128 .f32) (x1 : Vec Ideal S1x128 .f32) (x2 : Vec Ideal S1x1 .f32)
    (p : Fin 5000) (u : Fin 1) :
    k1_pay1 (F := Ideal) x0 x1 x2 (ix2 p u)
      = (∑ k : Fin 128, max (x0 (ix2 p k)) 0 * x1 (ix2 (0 : Fin 1) k)) + x2 (ix2 (0 : Fin 1) (0 : Fin 1)) := by
  obtain rfl : u = 0 := Fin.eq_zero u
  unfold k1_pay1
  refine (addf_apply _ _ _).trans ?_
  refine congrArg₂ (· + ·) ?_ ?_
  · refine (Keepdims.shapeCast_a_a1_apply _ _ p 0).trans ?_
    refine (laneSum_apply _ _ _ _ p).trans ?_
    refine Finset.sum_congr rfl fun k _ => ?_
    refine (mulf_apply _ _ _).trans ?_
    refine congrArg₂ (· * ·) ?_ ?_
    · refine (maximumf_apply _ _ _).trans ?_
      refine congrArg₂ max ?_ ?_
      · exact congrFun (shapeCast_self x0 _) _
      · exact Ideal.ofBits_zero_f32
    · exact broadcastTo_1b_ab_apply x1 _ p k
  · refine (broadcastTo_1b_ab_apply _ _ p 0).trans ?_
    exact congrFun (shapeCast_self x2 _) _

theorem zeroOffsets : (![0, 0] : Fin 2 → Nat) = fun _ => 0 := funext fun a => by fin_cases a <;> rfl

/-- The block indices of the four windows at every grid point. -/
theorem blockIndex_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the feature block at point t is row 5000·t + p of the feature array. -/
theorem featureBlock_apply (c : Dev nD) (t : Fin cfg1.N) (p : Fin 5000) (k : Fin 128) (R : Fin 50000)
    (hR : R.val = t.val * 5000 + p.val) :
    (iblk1 V c 0 t : Vec Ideal S5000x128 .f32) (ix2 p k) = (V c main_v83 : S50000x128.Idx → EReal) (ix2 R k) := by
  obtain ⟨f0, f1, -⟩ := blockIndex_facts t
  show V c main_v83 (((cfg1.win 0).blk t).view.emb (ix2 p k)) = V c main_v83 (ix2 R k)
  refine congrArg _ ?_
  funext a
  apply Fin.ext
  match a with
  | ⟨0, _⟩ => show win1_0.index t (0 : Fin 2) * 5000 + 1 * p.val = R.val; rw [f0, hR]; omega
  | ⟨1, _⟩ => show win1_0.index t (1 : Fin 2) * 128 + 1 * k.val = k.val; rw [f1]; omega

/-- The weight row's block is the whole [1, 128] array at every point. -/
theorem weightBlock_apply (c : Dev nD) (t : Fin cfg1.N) (k : Fin 128) :
    (iblk1 V c 1 t : Vec Ideal S1x128 .f32) (ix2 (0 : Fin 1) k) = (V c main_arg8 : S1x128.Idx → EReal) (ix2 (0 : Fin 1) k) := by
  obtain ⟨-, -, f2, f3, -⟩ := blockIndex_facts t
  show V c main_arg8 (((cfg1.win 1).blk t).view.emb (ix2 (0 : Fin 1) k)) = V c main_arg8 (ix2 (0 : Fin 1) k)
  refine congrArg _ ?_
  funext a
  apply Fin.ext
  match a with
  | ⟨0, _⟩ => show win1_1.index t (0 : Fin 2) * 1 + 1 * 0 = 0; rw [f2]
  | ⟨1, _⟩ => show win1_1.index t (1 : Fin 2) * 128 + 1 * k.val = k.val; rw [f3]; omega

/-- The bias block is the whole [1, 1] array at every point. -/
theorem biasBlock_apply (c : Dev nD) (t : Fin cfg1.N) :
    (iblk1 V c 2 t : Vec Ideal S1x1 .f32) (ix2 (0 : Fin 1) (0 : Fin 1)) = (V c main_v84 : S1x1.Idx → EReal) (ix2 (0 : Fin 1) (0 : Fin 1)) := by
  obtain ⟨-, -, -, -, f4, f5, -⟩ := blockIndex_facts t
  show V c main_v84 (((cfg1.win 2).blk t).view.emb (ix2 (0 : Fin 1) (0 : Fin 1))) = V c main_v84 (ix2 (0 : Fin 1) (0 : Fin 1))
  refine congrArg _ ?_
  funext a
  apply Fin.ext
  match a with
  | ⟨0, _⟩ => show win1_2.index t (0 : Fin 2) * 1 + 1 * 0 = 0; rw [f4]
  | ⟨1, _⟩ => show win1_2.index t (1 : Fin 2) * 1 + 1 * 0 = 0; rw [f5]

/-- Entry p of the output block at point t sits at row 5000·t + p of the output column. -/
theorem outputBlock_emb (t : Fin cfg1.N) (p : Fin 5000) (u : Fin 1) (R : Fin 50000) (hR : R.val = t.val * 5000 + p.val) :
    (((cfg1.win 3).blk t).view.emb (ix2 p u) : S50000x1.Idx) = ix2 R (0 : Fin 1) := by
  obtain ⟨-, -, -, -, -, -, f6, f7⟩ := blockIndex_facts t
  obtain rfl : u = 0 := Fin.eq_zero u
  funext a
  apply Fin.ext
  match a with
  | ⟨0, _⟩ => show win1_3.index t (0 : Fin 2) * 5000 + 1 * p.val = R.val; rw [f6, hR]; omega
  | ⟨1, _⟩ => show win1_3.index t (1 : Fin 2) * 1 + 1 * 0 = 0; rw [f7]

/-- Reading block t of a column G at entry p gives G at row 5000·t + p. -/
theorem outputBlock_read (G : S50000x1.Idx → EReal) (t : Fin cfg1.N) (p : Fin 5000) (u : Fin 1) (R : Fin 50000)
    (hR : R.val = t.val * 5000 + p.val) :
    ((cfg1.win 3).blk t).view.read (Elt Ideal) G (ix2 p u) = G (ix2 R (0 : Fin 1)) := by
  show G (((cfg1.win 3).blk t).view.emb (ix2 p u)) = _
  exact congrArg G (outputBlock_emb t p u R hR)

/-- The read-out column at row R. -/
theorem reluProjectArr_apply (h : S50000x128.Idx → EReal) (w : S1x128.Idx → EReal) (b : EReal) (R : Fin 50000) :
    Cert.Layer.reluProjectArr h w b (ix2 R (0 : Fin 1))
      = (∑ k : Fin 128, max (h (ix2 R k)) 0 * w (ix2 (0 : Fin 1) k)) + b := rfl

/-- What point t writes back is block t of the read-out column. -/
theorem writeBack_eq (c : Dev nD) (t : Fin cfg1.N) :
    (dat1 (F := Ideal) V c).flushed 3 t
      = ((cfg1.win 3).blk t).view.read (Elt Ideal)
          (Cert.Layer.reluProjectArr (V c main_v83) (V c main_arg8) (V c main_v84 (ix2 0 0))) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S1x128) zeroOffsets,
    View.ld_unit_zero (S := S1x1) zeroOffsets]
  funext j
  obtain ⟨p, u, rfl⟩ : ∃ (p : Fin 5000) (u : Fin 1), j = ix2 p u := ⟨j 0, j 1, eq_ix2 j⟩
  have hN : grid1.N = 10 := N_1
  have ht : t.val < 10 := hN ▸ t.isLt
  let R : Fin 50000 := ⟨t.val * 5000 + p.val, by have := p.isLt; omega⟩
  refine (reluLinear_pay_apply (iblk1 V c 0 t) (iblk1 V c 1 t) (iblk1 V c 2 t) p u).trans ?_
  refine Eq.trans ?_ (outputBlock_read _ t p u R rfl).symm
  refine Eq.trans ?_ (reluProjectArr_apply (V c main_v83) (V c main_arg8) (V c main_v84 (ix2 0 0)) R).symm
  rw [biasBlock_apply V c t]
  refine congrArg₂ (fun a b : EReal => a + b) (Finset.sum_congr rfl fun k _ => ?_) rfl
  rw [featureBlock_apply V c t p k R rfl, weightBlock_apply V c t k]

/-- A row of the output column lies in point t's block iff it is one of rows 5000·t … 5000·t + 4999. -/
theorem mem_outputBlock (t : Fin cfg1.N) (i : S50000x1.Idx) :
    i ∈ ((cfg1.win 3).blk t).view.set
      ↔ ∀ a : Fin 2, win1_3.index t a * S5000x1.size a ≤ (i a).val
          ∧ (i a).val < win1_3.index t a * S5000x1.size a + S5000x1.size a := by
  show i ∈ ((View.whole main_v85).slice (win1_3.rect t)).set ↔ _
  rw [View.set_slice_whole, Rect.mem_set_unit]
  exact Iff.rfl

/-- Every row r of the output column is written back by the point r / 5000. -/
theorem outputRows_covered (i : S50000x1.Idx) :
    ∃ t : Fin cfg1.N, (cfg1.win 3).flush t = true ∧ i ∈ ((cfg1.win 3).blk t).view.set := by
  have hN : grid1.N = 10 := N_1
  have hi0 : (i 0).val < 50000 := (i 0).isLt
  have hi1 : (i 1).val < 1 := (i 1).isLt
  have hq : (i 0).val / 5000 < grid1.N := by rw [hN]; omega
  obtain ⟨-, -, -, -, -, -, f6, f7⟩ := blockIndex_facts ⟨(i 0).val / 5000, hq⟩
  refine ⟨⟨(i 0).val / 5000, hq⟩, flush1_3 _, ?_⟩
  rw [mem_outputBlock]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    rw [f6]
    show (i 0).val / 5000 * 5000 ≤ (i 0).val ∧ (i 0).val < (i 0).val / 5000 * 5000 + 5000
    omega
  | ⟨1, _⟩ =>
    show win1_3.index ⟨(i 0).val / 5000, hq⟩ (1 : Fin 2) * 1 ≤ (i 1).val
      ∧ (i 1).val < win1_3.index ⟨(i 0).val / 5000, hq⟩ (1 : Fin 2) * 1 + 1
    rw [f7]
    omega

/-- After the ten write-backs the output column is the read-out of the feature array: entry r is the sum over the 128
    features of max(feature, 0) times the weight row, plus the bias. -/
theorem region1_array (c : Dev nD) :
    (dat1 (F := Ideal) V c).arrAt 3 cfg1.N = Cert.Layer.reluProjectArr (V c main_v83) (V c main_arg8) (V c main_v84 (ix2 0 0)) :=
  (dat1 (F := Ideal) V c).arrAt_eq_of_cover 3 _ (fun t _ => writeBack_eq V c t) outputRows_covered

end Cert.KernelIdeal.Regions
end
-- ==== Proof.KernelValue.lean ====
/-
  What the idealised kernel program leaves in its result array: the layer function of the launched arguments.

  Read from the end. The result array is what the second tiled region's write-backs leave: the read-out of the array,
  the row and the bias cell the region finds. The array it finds is the neighbourhood sum of the first region's output
  (with the edge list and weights as launched); the row and the bias are as launched. The first region's output is
  what its write-backs leave: the rows of the node features it finds (as launched) times the weight it finds (the
  evolved weight of the launched arguments). Composing the four equations gives the layer function.
-/
import proofs.«108203_j16192026706534_1_alg».proof.Proof.Fold
import proofs.«108203_j16192026706534_1_alg».proof.Proof.FoldAggregate
import proofs.«108203_j16192026706534_1_alg».proof.Proof.Region0
import proofs.«108203_j16192026706534_1_alg».proof.Proof.Region1

set_option maxRecDepth 16384

noncomputable section

namespace Cert.KernelIdeal.Fold

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The first region's output array is the rows of the launched node features times the evolved weight. -/
theorem product_eq (c : Dev nD) :
    W2 (F := Ideal) m ρ c (Proc.devRef .tc main_v38)
      = Cert.Layer.rowsTimesArr (m ((c : Thread nD τ).loc main_arg0))
          (Cert.Layer.evolved (m ((c : Thread nD τ).loc main_arg3)) (m ((c : Thread nD τ).loc main_arg4))
            (m ((c : Thread nD τ).loc main_arg5)) (m ((c : Thread nD τ).loc main_arg6)) (m ((c : Thread nD τ).loc main_arg7))) := by
  rw [W2_product, Cert.KernelIdeal.Regions.region0_array (V1 m ρ) c, evolved_eq, entry0_x]

/-- The result array at the end of the run is the layer function of the launched arguments. -/
theorem result_eq (c : Dev nD) :
    W6 (F := Ideal) m ρ c (Proc.devRef .tc main_v85) = Cert.Layer.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W6_result, Cert.KernelIdeal.Regions.region1_array (V5 m ρ) c, aggregate_eq, entry1_row, entry1_bias,
    product_eq, W2_edges, W2_weights]
  rfl

end Cert.KernelIdeal.Fold

end
-- ==== Proof.RefLayer.lean ====
/-
  The reference program's result, stage by stage, is the layer function.

  The reference computes the rows of the node features times the evolved weight with one general dot product: at
  `(p, q)` it is the sum over `k` of `x(p, k) · W(k, q)`, which is the product array `rowsTimesArr`. It then gathers,
  scales and scatter-adds those rows — the very operations the neighbourhood sum `aggregate` is made of, applied to
  that array, so the two agree without looking inside them. The read-out takes the maximum with a broadcast zero, a
  second dot product against the transposed row `x8` (entry `(k, 0)` of the transpose is `x8(0, k)`), and adds the
  bias broadcast from `x9(0)`: at row `p` this is `∑ k, max(h(p, k), 0) · x8(0, k) + x9(0)`, the read-out
  `reluProject` of the aggregated features.
-/
import proofs.«108203_j16192026706534_1_alg».proof.Proof.Layer
import proofs.«108203_j16192026706534_1_alg».proof.Proof.LibMatmul
import Idealize.ShloMosaic.Lib.Pipeline.Value
import Idealize.ShloMosaic.Lib.ValueIdx
import Idealize.ShloMosaic.PureOps.Ideal.Laws

open scoped BigOperators
noncomputable section
namespace Cert.ReferenceIdeal.RefLayer
open Cert.ReferenceIdeal Cert.ReferenceIdeal.Gen Cert.ReferenceIdeal.Read Idealize.ShloMosaic Idealize.ShloMosaic.ValueIdx

/-- The reference's first dot product is the rows of the node features times the evolved weight. -/
theorem rows_eq (x0 : (⟨S50000x128, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal)) :
    val_main_v70 (F := Ideal) x0 x3 x4 x5 x6 x7 = Cert.Layer.rowsTimesArr x0 (Cert.Layer.evolved x3 x4 x5 x6 x7) := by
  funext i
  rw [val_main_v70_apply]
  unfold Cert.Layer.rowsTimesArr Cert.Layer.rowsTimes
  refine Finset.sum_congr rfl fun k _ => ?_
  have el : lidx_main_v70 i k = ix2 (i 0) k := funext fun a => match a with
    | ⟨0, _⟩ => rfl
    | ⟨1, _⟩ => rfl
  have er : ridx_main_v70 i k = ix2 k (i 1) := funext fun a => match a with
    | ⟨0, _⟩ => rfl
    | ⟨1, _⟩ => rfl
  rw [el, er]
  rfl

/-- The reference's gather, scaling and scatter-add are the neighbourhood sum of its first dot product: the same
    operations on the same operands. -/
theorem hidden_eq_aggregate (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal)) :
    val_main_v83 (F := Ideal) x0 x1 x2 x3 x4 x5 x6 x7
      = Cert.Layer.aggregate (val_main_v70 (F := Ideal) x0 x3 x4 x5 x6 x7) x1 x2 := by
  unfold val_main_v83 val_main_v80 val_main_v78 Cert.Layer.aggregate
  rfl

/-- The array the maximum is taken against is zero everywhere. -/
theorem floor_zero (j : S50000x128.Idx) : val_main_call1_v0 (F := Ideal) j = 0 := by
  rw [val_main_call1_v0_apply, val_main_call1_cst_apply]
  exact Ideal.ofBits_zero_f32

theorem ref_is_layer (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S1x128, .f32⟩ : BufTy).Contents (Elt Ideal)) (x9 : (⟨S1, .f32⟩ : BufTy).Contents (Elt Ideal)) :
    val_main_v89 (F := Ideal) x0 x1 x2 x3 x4 x5 x6 x7 x8 x9 = Cert.Layer.layer x0 x1 x2 x3 x4 x5 x6 x7 x8 x9 := by
  have hagg : val_main_v83 (F := Ideal) x0 x1 x2 x3 x4 x5 x6 x7
      = Cert.Layer.aggregate (Cert.Layer.rowsTimesArr x0 (Cert.Layer.evolved x3 x4 x5 x6 x7)) x1 x2 :=
    (hidden_eq_aggregate x0 x1 x2 x3 x4 x5 x6 x7).trans
      (congrArg (fun xw => Cert.Layer.aggregate xw x1 x2) (rows_eq x0 x3 x4 x5 x6 x7))
  funext i
  obtain ⟨p, u, rfl⟩ : ∃ (p : Fin 50000) (u : Fin 1), i = ix2 p u := ⟨i 0, i 1, eq_ix2 i⟩
  show _ = Cert.Layer.reluProject
    (Cert.Layer.aggregate (Cert.Layer.rowsTimesArr x0 (Cert.Layer.evolved x3 x4 x5 x6 x7)) x1 x2) x8 (x9 (ix1 0)) p
  unfold Cert.Layer.reluProject
  rw [val_main_v89_apply, val_main_v86_apply, val_main_v88_apply, val_main_v87_apply, Ideal.addf_def]
  refine congrArg₂ _ (Finset.sum_congr rfl fun k _ => ?_) ?_
  · have el : lidx_main_v86 (ix2 p u) k = ix2 p k := funext fun a => match a with
      | ⟨0, _⟩ => rfl
      | ⟨1, _⟩ => rfl
    have er : idx_main_v85 (ridx_main_v86 (ix2 p u) k) = ix2 0 k := funext fun a => match a with
      | ⟨0, _⟩ => Fin.ext (by have hu : u.val < 1 := u.isLt; show u.val = 0; omega)
      | ⟨1, _⟩ => rfl
    rw [val_main_v84_apply, val_main_v85_apply, floor_zero, hagg, Ideal.maximumf_def, el, er]
  · exact congrArg x9 (funext fun a => match a with
      | ⟨0, _⟩ => rfl)

end Cert.ReferenceIdeal.RefLayer
end
-- ==== Proof.lean ====
/-
  A one-layer evolving graph convolution: the kernel program and its reference compute the same column of 50000 numbers
  on the extended reals.

  The layer. A gated-recurrent step turns the initial weight into the evolved weight `W` (host operations, the same in
  both programs). The node features `x : [50000, 128]` are multiplied by `W`; the rows of the product are gathered
  along the edges and the self loops, scaled by the symmetrically normalised edge weights, and added into their
  destination rows (host operations again, the same in both programs, carried as one function `Layer.aggregate` and
  never opened); the result is read out as `∑ₖ max(h(p, k), 0) · w(0, k) + b`.

  The two programs differ in two places only. The kernel forms `x · W` in ten row tiles of 5000 on the matrix unit,
  after rounding both operands to a narrower format — the identity on the extended reals — where the reference has one
  general dot product: entry `(p, q)` is `∑ₖ x(p, k) · W(k, q)` either way, and every row lies in exactly one tile.
  And the kernel forms the read-out in ten row tiles as a lane sum from zero of `max(h, 0) · w` plus the bias cell, where
  the reference takes the maximum with zero, a dot product with the transposed row, and adds the broadcast bias: the
  same sum over `k : Fin 128`. No distributivity or cancellation is used, so finiteness of the inputs is never needed.

  The modules. `LayerOps`, `Layer`: the layer as one function of the ten arguments. `Region0`, `Region1`: each tiled
  region's output array as a function of the arrays it finds. `Fold`, `FoldAggregate`: the buffers at the regions'
  boundaries as the layer's stages. `KernelValue`: the kernel's result array is the layer function. `KernelRun`: the
  kernel's run with the result array read. `RefLayer`: the reference's result stage is the layer function. Here the
  five claims are put together: the three frames, the (empty) idealisation ledger, and the equality of the results.
-/
import proofs.«108203_j16192026706534_1_alg».proof.Defs
import proofs.«108203_j16192026706534_1_alg».proof.Proof.Gen.Kernel
import proofs.«108203_j16192026706534_1_alg».proof.Proof.Gen.Kernel.Frame
import proofs.«108203_j16192026706534_1_alg».proof.Proof.Gen.KernelIdeal
import proofs.«108203_j16192026706534_1_alg».proof.Proof.Gen.KernelIdeal.Frame
import proofs.«108203_j16192026706534_1_alg».proof.Proof.Gen.ReferenceIdeal
import proofs.«108203_j16192026706534_1_alg».proof.Proof.Gen.Pre_finite_inputs
import proofs.«108203_j16192026706534_1_alg».proof.Proof.Gen.ReferenceIdeal.Run
import proofs.«108203_j16192026706534_1_alg».proof.Proof.Gen.ReferenceIdeal.Read
import proofs.«108203_j16192026706534_1_alg».proof.Proof.KernelRun
import proofs.«108203_j16192026706534_1_alg».proof.Proof.KernelValue
import proofs.«108203_j16192026706534_1_alg».proof.Proof.RefLayer
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation: nothing to restate. -/
theorem preserves : Cert.preserves_Kernel_KernelIdeal := trivial

/-- From memories agreeing on the ten arguments both programs end with the layer function of those arguments in their
    result arrays: the kernel by its run and `KernelValue`, the reference by its run and `RefLayer`. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Fold.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v89_eq, Cert.ReferenceIdeal.RefLayer.ref_is_layer,
      h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
